-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S50000x64 : Shape := ⟨2, ![50000, 64]⟩

abbrev nBuf : Space → Nat
  | .hbm => 73
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .bf16⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .i32⟩
  | .hbm, ⟨65, _⟩ => ⟨S_, .f32⟩
  | .hbm, ⟨66, _⟩ => ⟨S128x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x1, .f32⟩
  | .local _ .vmem, ⟨7, _⟩ => ⟨S2000x1, .f32⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_call0_v0 : Ref sig .tc := ⟨.hbm, 65, rfl⟩
abbrev main_v44 : Ref sig .tc := ⟨.hbm, 66, rfl⟩
abbrev main_c_12 : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S128x128_S128x128 : S128x128.ShapeCasts S128x128
  slices_S50000x128_S50000x64_0_0 : S50000x128.Slices ![0, 0] S50000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with its result named.

  The program is nine segments: a stretch of host operations, the first dense region, five stretches of host
  operations, the second dense region, and the closing slice.  The contents of the TensorCore's buffers at each
  boundary form a fold from the launch memory (`W0 … W9`).  Every weakly fair execution terminates without a
  fault in a state whose unscoped buffers hold the last boundary's contents `W9`; so the result buffer holds
  `W9` read at the result, and each argument holds what it was launched with.
-/
import proofs.«145772_j23914377904381_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_W9 : θ_run defs (onTc (τ := τ) (main (F := F))) ⟨m, fun _ => 0, ρ⟩ (fun r => ∀ c : Dev nD,
      r.2.mem ((c.tc : Thread nD τ).loc main_v48) = W9 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v48 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.Spec.lean ====
/-
  One dense graph-convolution layer, as a function of whole arrays read index by index on the extended reals.

  Given the aggregated features `A` (one row per node, `K` features), a per-node scale `s` held as a column,
  a weight matrix `W` (`K × d`) and a bias held as a row, entry `(r, c)` of the layer's output is

      max (∑ₖ (A[r,k] · s[r]) · W[k,c] + b[c]) 0 .

  The same formula describes one block of rows (the block's rows of `A` and `s`, all of `W` and `b`) and the
  whole array: a row of the output depends only on that row of `A` and `s`.
-/
import Idealize.ShloMosaic.PureOps.Ideal.Laws
import Idealize.ShloMosaic.Lib.ValueIdx

noncomputable section

namespace Cert.Spec

open Idealize.ShloMosaic Idealize.ShloMosaic.ValueIdx

/-- An `a × b` array of extended reals. -/
abbrev Mat (a b : Nat) := (⟨2, ![a, b]⟩ : Shape).Idx → EReal

/-- Entry `(r, c)` of one dense layer: the row `r` of `A`, scaled by `s[r]`, against column `c` of `W`, plus the
    bias at `c`, clamped below at zero. -/
def layerAt {n K d : Nat} (A : Mat n K) (s : Mat n 1) (W : Mat K d) (b : Mat 1 d) (r : Fin n) (c : Fin d) : EReal :=
  max ((∑ k : Fin K, (A (ix2 r k) * s (ix2 r (0 : Fin 1))) * W (ix2 k c)) + b (ix2 (0 : Fin 1) c)) 0

/-- The layer as a whole array. -/
def layer {n K d : Nat} (A : Mat n K) (s : Mat n 1) (W : Mat K d) (b : Mat 1 d) : Mat n d :=
  fun i => layerAt A s W b (i 0) (i 1)

theorem layer_ix2 {n K d : Nat} (A : Mat n K) (s : Mat n 1) (W : Mat K d) (b : Mat 1 d) (r : Fin n) (c : Fin d) :
    layer A s W b (ix2 r c) = layerAt A s W b r c := rfl

/-- The layer followed by a second per-node scale `u` (the next layer's input scale, applied early). -/
def layerScaled {n K d : Nat} (A : Mat n K) (s : Mat n 1) (W : Mat K d) (b : Mat 1 d) (u : Mat n 1) : Mat n d :=
  fun i => layerAt A s W b (i 0) (i 1) * u (ix2 (i 0) (0 : Fin 1))

theorem layerScaled_ix2 {n K d : Nat} (A : Mat n K) (s : Mat n 1) (W : Mat K d) (b : Mat 1 d) (u : Mat n 1) (r : Fin n) (c : Fin d) :
    layerScaled A s W b u (ix2 r c) = layerAt A s W b r c * u (ix2 r (0 : Fin 1)) := rfl

/-- A row of the layer depends only on that row of `A` and `s`: if two inputs agree on row `r` (of the first) and
    row `r'` (of the second), the outputs agree there. -/
theorem layerAt_congr {n n' K d : Nat} (A : Mat n K) (s : Mat n 1) (A' : Mat n' K) (s' : Mat n' 1) (W : Mat K d) (b : Mat 1 d)
    (r : Fin n) (r' : Fin n') (c : Fin d) (hA : ∀ k : Fin K, A (ix2 r k) = A' (ix2 r' k)) (hs : s (ix2 r (0 : Fin 1)) = s' (ix2 r' (0 : Fin 1))) :
    layerAt A s W b r c = layerAt A' s' W b r' c := by
  unfold layerAt
  rw [hs]
  exact congrArg (fun x => max (x + b (ix2 (0 : Fin 1) c)) 0) (Finset.sum_congr rfl fun k _ => by rw [hA k])

end Cert.Spec

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Payload.lean ====
/-
  What each kernel body computes, read at an entry of its block.

  Both bodies load a block of 2000 rows of aggregated features `x0`, the matching 2000 per-node scales `x1`
  (a column), the whole weight matrix `x2` and the bias row `x3`; the first body also loads a second column of
  scales `x4`.  On the extended reals the changes of float format are the identity, the matrix unit's product
  into a zero accumulator is the plain sum over the contracted axis, the column broadcasts read the column at
  the entry's row and the row broadcast reads the bias at the entry's column.  So at entry `(p, q)` the first
  body stores `max (∑ₖ (x0[p,k]·x1[p])·x2[k,q] + x3[q]) 0 · x4[p]` and the second the same without the last
  factor: one dense layer (`Cert.Spec.layerAt`) on the block's rows.
-/
import proofs.«145772_j23914377904381_2_alg».proof.Proof.Gen.KernelIdeal.Skeleton
import proofs.«145772_j23914377904381_2_alg».proof.Proof.Spec
import proofs.«145772_j23914377904381_2_alg».proof.Proof.LibColumnBroadcast
import proofs.«145772_j23914377904381_2_alg».proof.Proof.LibSplitContraction
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Spec

/-- The body's matrix product: 2000 rows by 128 contracted by 128 columns. -/
abbrev D := dot_S2000x128_S128x128_S2000x128_1_0_0_1_n_n

theorem D_lhs0 (j : S2000x128.Idx) (q : D.contr.Idx) : (D.lhsIdx j q 0).val = (j 0).val := by
  unfold DotDims.lhsIdx
  rw [dif_neg (show ¬(0 : Fin S2000x128.rank) ∈ D.lhsBatch by decide), dif_pos (show (0 : Fin S2000x128.rank) ∈ D.lhsNonContracting by decide)]
  rfl
theorem D_lhs1 (j : S2000x128.Idx) (q : D.contr.Idx) : (D.lhsIdx j q 1).val = (q ⟨0, by decide⟩).val :=
  D.lhsIdx_val_of_single rfl j q
theorem D_rhs0 (j : S2000x128.Idx) (q : D.contr.Idx) : (D.rhsIdx j q 0).val = (q ⟨0, by decide⟩).val :=
  D.rhsIdx_val_of_single rfl j q
theorem D_rhs1 (j : S2000x128.Idx) (q : D.contr.Idx) : (D.rhsIdx j q 1).val = (j 1).val := by
  unfold DotDims.rhsIdx
  rw [dif_neg (show ¬(1 : Fin S128x128.rank) ∈ D.rhsBatch by decide), dif_pos (show (1 : Fin S128x128.rank) ∈ D.rhsNonContracting by decide)]
  rfl

/-- The product of the scaled block with the weights, into the zero accumulator, at `(p, q)`. -/
theorem scaled_matmul_apply (x0 : Vec Ideal S2000x128 .f32) (x1 : Vec Ideal S2000x1 .f32) (x2 : Vec Ideal S128x128 .f32)
    (p : Fin 2000) (q : Fin 128) :
    matmul (F := Ideal) D none
        (truncf .bf16 (mulf x0 (broadcastTo S2000x128 x1 broadcasts_S2000x1_S2000x128)) bitsLt_bf16_f32)
        (truncf .bf16 x2 bitsLt_bf16_f32) (constant (F := Ideal) S2000x128 .f32 0x00000000#32) (ix2 p q)
      = ∑ k : Fin 128, (x0 (ix2 p k) * x1 (ix2 p (0 : Fin 1))) * x2 (ix2 k q) := by
  refine (Cert.Lib.SplitContraction.matmul_zero_at D rfl rfl D_lhs0 D_lhs1 D_rhs0 D_rhs1 none _ _ p q).trans ?_
  refine Finset.sum_congr rfl fun k _ => ?_
  rw [truncf_apply, truncf_apply, mulf_apply, broadcastTo_a1_ab_apply]

/-- The first body's stored value at `(p, q)`. -/
theorem pay0_apply (x0 : Vec Ideal S2000x128 .f32) (x1 : Vec Ideal S2000x1 .f32) (x2 : Vec Ideal S128x128 .f32)
    (x3 : Vec Ideal S1x128 .f32) (x4 : Vec Ideal S2000x1 .f32) (p : Fin 2000) (q : Fin 128) :
    k0_pay1 x0 x1 x2 x3 x4 (ix2 p q) = layerAt x0 x1 x2 x3 p q * x4 (ix2 p (0 : Fin 1)) := by
  unfold k0_pay1 layerAt
  simp only [shapeCast_self]
  rw [truncf_apply, mulf_apply, maximumf_apply, addf_apply, broadcast_apply, broadcastTo_a1_ab_apply, broadcastTo_1b_ab_apply,
    scaled_matmul_apply]
  show max _ (Ideal.ofBits .f32 0x00000000#32) * _ = _
  rw [Ideal.ofBits_zero_f32]

/-- The second body's stored value at `(p, q)`. -/
theorem pay1_apply (x0 : Vec Ideal S2000x128 .f32) (x1 : Vec Ideal S2000x1 .f32) (x2 : Vec Ideal S128x128 .f32)
    (x3 : Vec Ideal S1x128 .f32) (p : Fin 2000) (q : Fin 128) :
    k1_pay1 x0 x1 x2 x3 (ix2 p q) = layerAt x0 x1 x2 x3 p q := by
  unfold k1_pay1 layerAt
  simp only [shapeCast_self]
  rw [maximumf_apply, addf_apply, broadcast_apply, broadcastTo_1b_ab_apply, scaled_matmul_apply]
  show max _ (Ideal.ofBits .f32 0x00000000#32) = _
  rw [Ideal.ofBits_zero_f32]

end Cert.KernelIdeal.Payload

end
-- ==== Proof.Region0.lean ====
/-
  The first dense region's output array, as one function of the arrays the region finds.

  The grid has 25 points; point `t` works on rows `2000·t … 2000·t + 1999`: it is handed those rows of the
  aggregated features (window 0) and of the two columns of per-node scales (windows 1 and 4), the whole weight
  matrix and the whole bias row (windows 2 and 3, block (0, 0) at every point), and writes those rows of the
  output (window 5).  Since a row of the dense layer depends only on that row of its inputs, what point `t`
  writes back is rows `2000·t …` of the layer applied to the WHOLE arrays; the 25 blocks tile the 50000 rows, so
  the output array ends holding the layer of the whole arrays.
-/
import proofs.«145772_j23914377904381_2_alg».proof.Proof.Gen.KernelIdeal.Frame
import proofs.«145772_j23914377904381_2_alg».proof.Proof.Payload
import Idealize.ShloMosaic.Lib.Pipeline.Value

set_option maxRecDepth 16384

noncomputable section

namespace Cert.KernelIdeal.Region0

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region finds: aggregated features, the input scale, the weights, the bias
    row, and the output scale. -/
def whole (c : Dev nD) : Mat 50000 128 :=
  layerScaled (V c main_v30 : Mat 50000 128) (V c main_v16 : Mat 50000 1) (V c main_arg1 : Mat 128 128)
    (V c main_v31 : Mat 1 128) (V c main_v13 : Mat 50000 1)

/-- The printed index maps over the grid: the row-blocked windows sit at block `(t, 0)`, the weights and the bias at
    block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 25 := lt_of_lt_of_eq t.isLt N_0

/-- One point's stored value against the layer of whole arrays: if the loaded blocks are the point's rows of the
    whole arrays, entry `(p, q)` of the stored block is entry `(2000·t + p, q)` of the whole layer. -/
theorem point_eq (A : Mat 50000 128) (s : Mat 50000 1) (W : Mat 128 128) (b : Mat 1 128) (u : Mat 50000 1)
    (x0 : Vec Ideal S2000x128 .f32) (x1 : Vec Ideal S2000x1 .f32) (x2 : Vec Ideal S128x128 .f32)
    (x3 : Vec Ideal S1x128 .f32) (x4 : Vec Ideal S2000x1 .f32) (p : Fin 2000) (q : Fin 128) (r : Fin 50000)
    (h0 : ∀ k : Fin 128, x0 (ix2 p k) = A (ix2 r k)) (h1 : x1 (ix2 p (0 : Fin 1)) = s (ix2 r (0 : Fin 1)))
    (h2 : ∀ k : Fin 128, x2 (ix2 k q) = W (ix2 k q)) (h3 : x3 (ix2 (0 : Fin 1) q) = b (ix2 (0 : Fin 1) q))
    (h4 : x4 (ix2 p (0 : Fin 1)) = u (ix2 r (0 : Fin 1))) :
    k0_pay1 x0 x1 x2 x3 x4 (ix2 p q) = layerScaled A s W b u (ix2 r q) := by
  rw [pay0_apply, layerScaled_ix2, h4]
  refine congrArg (· * u (ix2 r (0 : Fin 1))) ?_
  unfold layerAt
  rw [h1, h3]
  exact congrArg (fun x => max (x + b (ix2 (0 : Fin 1) q)) 0) (Finset.sum_congr rfl fun k _ => by rw [h0 k, h2 k])

/-- Window 0's block at point `t`: rows `2000·t …` of the aggregated features. -/
theorem blk0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_v30 : Mat 50000 128) k := by
  obtain ⟨e0, e1, -⟩ := idx_facts t
  show V c main_v30 (((cfg0.win 0).blk t).view.emb x) = V c main_v30 k
  refine congrArg (V c main_v30) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- Window 1's block at point `t`: rows `2000·t …` of the input scale. -/
theorem blk1_apply (c : Dev nD) (t : Fin cfg0.N) (x : S2000x1.Idx) (k : S50000x1.Idx)
    (hk0 : (k 0).val = 2000 * t.val + (x 0).val) (hk1 : (k 1).val = (x 1).val) :
    (iblk0 V c 1 t : Vec Ideal S2000x1 .f32) x = (V c main_v16 : Mat 50000 1) k := by
  obtain ⟨-, -, e0, e1, -⟩ := idx_facts t
  show V c main_v16 (((cfg0.win 1).blk t).view.emb x) = V c main_v16 k
  refine congrArg (V c main_v16) (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 1 + 1 * (x 1).val = (k 1).val; rw [e1, hk1]; omega

/-- Window 2's block at every point: the whole weight matrix. -/
theorem blk2_apply (c : Dev nD) (t : Fin cfg0.N) (x : S128x128.Idx) :
    (iblk0 V c 2 t : Vec Ideal S128x128 .f32) x = (V c main_arg1 : Mat 128 128) x := by
  obtain ⟨-, -, -, -, e0, e1, -⟩ := idx_facts t
  show V c main_arg1 (((cfg0.win 2).blk t).view.emb x) = V c main_arg1 x
  refine congrArg (V c main_arg1) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Window 3's block at every point: the whole bias row. -/
theorem blk3_apply (c : Dev nD) (t : Fin cfg0.N) (x : S1x128.Idx) :
    (iblk0 V c 3 t : Vec Ideal S1x128 .f32) x = (V c main_v31 : Mat 1 128) x := by
  obtain ⟨-, -, -, -, -, -, e0, e1, -⟩ := idx_facts t
  show V c main_v31 (((cfg0.win 3).blk t).view.emb x) = V c main_v31 x
  refine congrArg (V c main_v31) (funext fun a => Fin.ext ?_)
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- Window 4's block at point `t`: rows `2000·t …` of the output scale. -/
theorem blk4_apply (c : Dev nD) (t : Fin cfg0.N) (x : S2000x1.Idx) (k : S50000x1.Idx)
    (hk0 : (k 0).val = 2000 * t.val + (x 0).val) (hk1 : (k 1).val = (x 1).val) :
    (iblk0 V c 4 t : Vec Ideal S2000x1 .f32) x = (V c main_v13 : Mat 50000 1) k := by
  obtain ⟨-, -, -, -, -, -, -, -, e0, e1, -⟩ := idx_facts t
  show V c main_v13 (((cfg0.win 4).blk t).view.emb x) = V c main_v13 k
  refine congrArg (V c main_v13) (funext fun a => Fin.ext ?_)
  match a with
  | ⟨0, _⟩ => show win0_4.index t (0 : Fin 2) * 2000 + 1 * (x 0).val = (k 0).val; rw [e0, hk0]; omega
  | ⟨1, _⟩ => show win0_4.index t (1 : Fin 2) * 1 + 1 * (x 1).val = (k 1).val; rw [e1, hk1]; omega

/-- What point `t` writes back is block `t` of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S2000x1) hz,
    View.ld_unit_zero (S := S128x128) hz, View.ld_unit_zero (S := S1x128) hz]
  have ht := t_lt t
  obtain ⟨-, -, -, -, -, -, -, -, -, -, e0, e1⟩ := idx_facts t
  funext j
  obtain ⟨p, q, rfl⟩ : ∃ (p : Fin 2000) (q : Fin 128), j = ix2 p q := ⟨j 0, j 1, eq_ix2 j⟩
  have hemb : ((cfg0.win 5).blk t).view.emb (ix2 p q) = ix2 (⟨2000 * t.val + p.val, by omega⟩ : Fin 50000) q := by
    funext a; apply Fin.ext
    match a with
    | ⟨0, _⟩ => show win0_5.index t (0 : Fin 2) * 2000 + 1 * p.val = 2000 * t.val + p.val; rw [e0]; omega
    | ⟨1, _⟩ => show win0_5.index t (1 : Fin 2) * 128 + 1 * q.val = q.val; rw [e1]; omega
  show k0_pay1 (iblk0 V c 0 t) (iblk0 V c 1 t) (iblk0 V c 2 t) (iblk0 V c 3 t) (iblk0 V c 4 t) (ix2 p q)
    = whole V c (((cfg0.win 5).blk t).view.emb (ix2 p q))
  rw [hemb]
  exact point_eq _ _ _ _ _ _ _ _ _ _ p q _
    (fun k => blk0_apply V c t _ _ rfl rfl) (blk1_apply V c t _ _ rfl rfl)
    (fun k => blk2_apply V c t _) (blk3_apply V c t _) (blk4_apply V c t _ _ rfl rfl)

/-- An index of the output array is in point `t`'s block iff each coordinate is in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v32).slice (win0_5.rect t)).set ↔ _
  rw [View.set_slice_whole, Rect.mem_set_unit]
  exact Iff.rfl

/-- The 25 blocks of 2000 rows cover the 50000 rows: row `r` is in block `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, lt_of_lt_of_eq (by omega : (i 0).val / 2000 < 25) N_0.symm⟩
  have htv : t.val = (i 0).val / 2000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, htv]; omega
  | ⟨1, _⟩ => show win0_5.index t (1 : Fin 2) * 128 ≤ (i 1).val ∧ (i 1).val < win0_5.index t (1 : Fin 2) * 128 + 128; rw [e1]; omega

/-- The output array after the region: the layer of the whole arrays. -/
theorem final (c : Dev nD) : (dat0 V c).arrAt 5 cfg0.N = whole V c :=
  (dat0 V c).arrAt_eq_of_cover 5 (whole V c) (fun t _ => flushed_eq V c t) (cover)

end Cert.KernelIdeal.Region0

end
-- ==== Proof.Region1.lean ====
/-
  The second dense region's output array, as one function of the arrays the region finds.

  As in the first region the grid has 25 points and point `t` works on rows `2000·t … 2000·t + 1999`: those rows
  of the aggregated features (window 0) and of the column of per-node scales (window 1), the whole (zero-padded)
  weight matrix and bias row (windows 2 and 3), and it writes those rows of the output (window 4).  What point `t`
  writes back is rows `2000·t …` of the dense layer applied to the whole arrays, and the 25 blocks tile the
  50000 rows: the output array ends holding the layer of the whole arrays.
-/
import proofs.«145772_j23914377904381_2_alg».proof.Proof.Gen.KernelIdeal.Frame
import proofs.«145772_j23914377904381_2_alg».proof.Proof.Payload
import Idealize.ShloMosaic.Lib.Pipeline.Value

set_option maxRecDepth 16384

noncomputable section

namespace Cert.KernelIdeal.Region1

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region finds: aggregated features, the input scale, the padded weights and
    the padded bias row. -/
def whole (c : Dev nD) : Mat 50000 128 :=
  layer (V c main_v43 : Mat 50000 128) (V c main_v16 : Mat 50000 1) (V c main_v44 : Mat 128 128) (V c main_v46 : Mat 1 128)

/-- The printed index maps over the grid: the row-blocked windows sit at block `(t, 0)`, the weights and the bias at
    block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 25 := lt_of_lt_of_eq t.isLt N_1

/-- One point's stored value against the layer of whole arrays: if the loaded blocks are the point's rows of the
    whole arrays, entry `(p, q)` of the stored block is entry `(2000·t + p, q)` of the whole layer. -/
theorem point_eq (A : Mat 50000 128) (s : Mat 50000 1) (W : Mat 128 128) (b : Mat 1 128)
    (x0 : Vec Ideal S2000x128 .f32) (x1 : Vec Ideal S2000x1 .f32) (x2 : Vec Ideal S128x128 .f32)
    (x3 : Vec Ideal S1x128 .f32) (p : Fin 2000) (q : Fin 128) (r : Fin 50000)
    (h0 : ∀ k : Fin 128, x0 (ix2 p k) = A (ix2 r k)) (h1 : x1 (ix2 p (0 : Fin 1)) = s (ix2 r (0 : Fin 1)))
    (h2 : ∀ k : Fin 128, x2 (ix2 k q) = W (ix2 k q)) (h3 : x3 (ix2 (0 : Fin 1) q) = b (ix2 (0 : Fin 1) q)) :
    k1_pay1 x0 x1 x2 x3 (ix2 p q) = layer A s W b (ix2 r q) := by
  rw [pay1_apply, layer_ix2]
  unfold layerAt
  rw [h1, h3]
  exact congrArg (fun x => max (x + b (ix2 (0 : Fin 1) q)) 0) (Finset.sum_congr rfl fun k _ => by rw [h0 k, h2 k])

/-- Window 0's block at point `t`: rows `2000·t …` of the aggregated features. -/
theorem blk0_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v43 : Mat 50000 128) k := by
  obtain ⟨e0, e1, -⟩ := idx_facts t
  show V c main_v43 (((cfg1.win 0).blk t).view.emb x) = V c main_v43 k
  refine congrArg (V c main_v43) (funext fun a => Fin.ext ?_)
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- Window 1's block at point `t`: rows `2000·t …` of the input scale. -/
theorem blk1_apply (c : Dev nD) (t : Fin cfg1.N) (x : S2000x1.Idx) (k : S50000x1.Idx)
    (hk0 : (k 0).val = 2000 * t.val + (x 0).val) (hk1 : (k 1).val = (x 1).val) :
    (iblk1 V c 1 t : Vec Ideal S2000x1 .f32) x = (V c main_v16 : Mat 50000 1) k := by
  obtain ⟨-, -, e0, e1, -⟩ := idx_facts t
  show V c main_v16 (((cfg1.win 1).blk t).view.emb x) = V c main_v16 k
  refine congrArg (V c main_v16) (funext fun a => Fin.ext ?_)
  match a with
  | ⟨0, _⟩ => show win1_1.index t (0 : Fin 2) * 2000 + 1 * (x 0).val = (k 0).val; rw [e0, hk0]; omega
  | ⟨1, _⟩ => show win1_1.index t (1 : Fin 2) * 1 + 1 * (x 1).val = (k 1).val; rw [e1, hk1]; omega

/-- Window 2's block at every point: the whole padded weight matrix. -/
theorem blk2_apply (c : Dev nD) (t : Fin cfg1.N) (x : S128x128.Idx) :
    (iblk1 V c 2 t : Vec Ideal S128x128 .f32) x = (V c main_v44 : Mat 128 128) x := by
  obtain ⟨-, -, -, -, e0, e1, -⟩ := idx_facts t
  show V c main_v44 (((cfg1.win 2).blk t).view.emb x) = V c main_v44 x
  refine congrArg (V c main_v44) (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- Window 3's block at every point: the whole padded bias row. -/
theorem blk3_apply (c : Dev nD) (t : Fin cfg1.N) (x : S1x128.Idx) :
    (iblk1 V c 3 t : Vec Ideal S1x128 .f32) x = (V c main_v46 : Mat 1 128) x := by
  obtain ⟨-, -, -, -, -, -, e0, e1, -⟩ := idx_facts t
  show V c main_v46 (((cfg1.win 3).blk t).view.emb x) = V c main_v46 x
  refine congrArg (V c main_v46) (funext fun a => Fin.ext ?_)
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- What point `t` writes back is block `t` of the layer of the whole arrays. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz,
    View.ld_unit_zero (S := S128x128) hz, View.ld_unit_zero (S := S1x128) hz]
  have ht := t_lt t
  obtain ⟨-, -, -, -, -, -, -, -, e0, e1⟩ := idx_facts t
  funext j
  obtain ⟨p, q, rfl⟩ : ∃ (p : Fin 2000) (q : Fin 128), j = ix2 p q := ⟨j 0, j 1, eq_ix2 j⟩
  have hemb : ((cfg1.win 4).blk t).view.emb (ix2 p q) = ix2 (⟨2000 * t.val + p.val, by omega⟩ : Fin 50000) q := by
    funext a; apply Fin.ext
    match a with
    | ⟨0, _⟩ => show win1_4.index t (0 : Fin 2) * 2000 + 1 * p.val = 2000 * t.val + p.val; rw [e0]; omega
    | ⟨1, _⟩ => show win1_4.index t (1 : Fin 2) * 128 + 1 * q.val = q.val; rw [e1]; omega
  show k1_pay1 (iblk1 V c 0 t) (iblk1 V c 1 t) (iblk1 V c 2 t) (iblk1 V c 3 t) (ix2 p q)
    = whole V c (((cfg1.win 4).blk t).view.emb (ix2 p q))
  rw [hemb]
  exact point_eq _ _ _ _ _ _ _ _ p q _
    (fun k => blk0_apply V c t _ _ rfl rfl) (blk1_apply V c t _ _ rfl rfl)
    (fun k => blk2_apply V c t _) (blk3_apply V c t _)

/-- An index of the output array is in point `t`'s block iff each coordinate is in the block's range. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

/-- The 25 blocks of 2000 rows cover the 50000 rows: row `r` is in block `r / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 2000, lt_of_lt_of_eq (by omega : (i 0).val / 2000 < 25) N_1.symm⟩
  have htv : t.val = (i 0).val / 2000 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; rw [e0, htv]; omega
  | ⟨1, _⟩ => show win1_4.index t (1 : Fin 2) * 128 ≤ (i 1).val ∧ (i 1).val < win1_4.index t (1 : Fin 2) * 128 + 128; rw [e1]; omega

/-- The output array after the region: the layer of the whole arrays. -/
theorem final (c : Dev nD) : (dat1 V c).arrAt 4 cfg1.N = whole V c :=
  (dat1 V c).arrAt_eq_of_cover 4 (whole V c) (fun t _ => flushed_eq V c t) (cover)

end Cert.KernelIdeal.Region1

end
-- ==== Proof.KernelFold.lean ====
/-
  The buffer contents at the segment boundaries, read as functions of the arguments.

  Host operations before the first region compute, from the edge lists `src` and `dst`, the two columns of
  per-node scales `deg^(-1/2)` (degrees clamped below at 1), scale the node features by the source-side column,
  gather the scaled rows along `src` and add them up along `dst` (the neighbour aggregation), and lay the first
  bias out as a row.  Between the regions the same aggregation is applied to the first region's output, and the
  second layer's weights and bias are padded with zero columns to width 128.  After the second region the first
  64 columns are cut out.
-/
import proofs.«145772_j23914377904381_2_alg».proof.Proof.Gen.KernelIdeal.Frame
import proofs.«145772_j23914377904381_2_alg».proof.Proof.Region0
import proofs.«145772_j23914377904381_2_alg».proof.Proof.Region1
import Idealize.ShloMosaic.Lib.StableHlo.Run

set_option maxRecDepth 16384

noncomputable section

namespace Cert.KernelIdeal.Fold

open Cert.KernelIdeal Cert.KernelIdeal.Gen Cert.Spec
open Idealize.ShloMosaic Idealize.ShloMosaic.TcCoe Idealize.ShloMosaic.ValueIdx Idealize.SL.Sem Idealize.ShloMosaic.StableHlo
open Idealize.ShloMosaic.Pipeline (Dat)

/-- An edge list: 800000 node indices. -/
abbrev Edges := (⟨S800000, .i32⟩ : BufTy).Contents (Elt Ideal)

/-- The column of per-node scales from one end of the edges: the number of edges at each node (ones added up
    along the edge list), clamped below at 1, to the power -1/2. -/
def normCol (x : Edges) : (⟨S50000x1, .f32⟩ : BufTy).Contents (Elt Ideal) :=
  broadcastInDim S50000x1 ![0] bcast_S50000_S50000x1_0
    (Host.powf
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 x)
          (broadcastInDim S800000 ![] bcast_S_S800000 (constant (F := Ideal) S_ .f32 0x3F800000#32)))
        (broadcastInDim S50000 ![] bcast_S_S50000 (constant (F := Ideal) S_ .f32 0x3F800000#32)))
      (broadcastInDim S50000 ![] bcast_S_S50000 (constant (F := Ideal) S_ .f32 0xBF000000#32)))

/-- The source indices as gather start indices: a negative index counts from the end. -/
def wrapIdx (x5 : Edges) : (⟨S800000x1, .i32⟩ : BufTy).Contents (Elt Ideal) :=
  broadcastInDim S800000x1 ![0] bcast_S800000_S800000x1_0
    (select (cmpi .slt x5 (broadcastInDim S800000 ![] bcast_S_S800000 (constantI S_ 32 0#32)))
      (addi x5 (broadcastInDim S800000 ![] bcast_S_S800000 (constantI S_ 32 50000#32))) x5)

/-- The neighbour aggregation: the rows of `y` gathered along the source indices, added up along the destination
    indices into a zero array. -/
def aggregate (y : (⟨S50000x128, .bf16⟩ : BufTy).Contents (Elt Ideal)) (x5 x6 : Edges) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x6)
    (extf .f32 (Host.gather gather_S50000x128_S800000x1_S800000x128_1_0_n_n_0_1_1128 y (wrapIdx x5)) bitsLt_bf16_f32)

/-- The node features scaled by the source-side column. -/
def scaledIn (x0 : (⟨S50000x128, .f32⟩ : BufTy).Contents (Elt Ideal)) (x5 : Edges) : (⟨S50000x128, .bf16⟩ : BufTy).Contents (Elt Ideal) :=
  truncf (F := Ideal) .bf16 (mulf x0 (broadcastInDim S50000x128 ![0, 1] bcast_S50000x1_S50000x128_0_1 (normCol x5))) bitsLt_bf16_f32

variable (m : (ℓ : Loc nD τ sig) → Buf (Elt Ideal) ℓ) (ρ : Dev nD → PrngReg) (c : Dev nD)

/-! ## At the first region's entry -/

theorem W1_v13 : W1 m ρ c (Proc.devRef .tc main_v13) = normCol (m ((c : Thread nD τ).loc main_arg5)) := by
  dsimp only [W1, W0, hostOps0]
  after_results_simp
  rfl

theorem W1_v16 : W1 m ρ c (Proc.devRef .tc main_v16) = normCol (m ((c : Thread nD τ).loc main_arg6)) := by
  dsimp only [W1, W0, hostOps0]
  after_results_simp
  rfl

theorem W1_v30 : W1 m ρ c (Proc.devRef .tc main_v30)
    = aggregate (scaledIn (m ((c : Thread nD τ).loc main_arg0)) (m ((c : Thread nD τ).loc main_arg5)))
        (m ((c : Thread nD τ).loc main_arg5)) (m ((c : Thread nD τ).loc main_arg6)) := by
  dsimp only [W1, W0, hostOps0]
  after_results_simp
  rfl

theorem W1_v31 : W1 m ρ c (Proc.devRef .tc main_v31) = shapeCast S1x128 (m ((c : Thread nD τ).loc main_arg2)) shapeCasts_S128_S1x128 := by
  dsimp only [W1, W0, hostOps0]
  after_results_simp
  rfl

theorem W1_arg1 : W1 m ρ c (Proc.devRef .tc main_arg1) = m ((c : Thread nD τ).loc main_arg1) := by
  dsimp only [W1, W0, hostOps0]
  after_results_simp

theorem W1_arg3 : W1 m ρ c (Proc.devRef .tc main_arg3) = m ((c : Thread nD τ).loc main_arg3) := by
  dsimp only [W1, W0, hostOps0]
  after_results_simp

theorem W1_arg4 : W1 m ρ c (Proc.devRef .tc main_arg4) = m ((c : Thread nD τ).loc main_arg4) := by
  dsimp only [W1, W0, hostOps0]
  after_results_simp

theorem W1_arg5 : W1 m ρ c (Proc.devRef .tc main_arg5) = m ((c : Thread nD τ).loc main_arg5) := by
  dsimp only [W1, W0, hostOps0]
  after_results_simp

theorem W1_arg6 : W1 m ρ c (Proc.devRef .tc main_arg6) = m ((c : Thread nD τ).loc main_arg6) := by
  dsimp only [W1, W0, hostOps0]
  after_results_simp

/-- The first layer's output, already scaled by the source-side column for the next aggregation. -/
def hidden (a0 : (⟨S50000x128, .f32⟩ : BufTy).Contents (Elt Ideal)) (a1 : (⟨S128x128, .f32⟩ : BufTy).Contents (Elt Ideal))
    (a2 : (⟨S128, .f32⟩ : BufTy).Contents (Elt Ideal)) (a5 a6 : Edges) : Mat 50000 128 :=
  layerScaled (aggregate (scaledIn a0 a5) a5 a6 : Mat 50000 128) (normCol a6 : Mat 50000 1) (a1 : Mat 128 128)
    (shapeCast S1x128 a2 shapeCasts_S128_S1x128 : Mat 1 128) (normCol a5 : Mat 50000 1)

/-- The first region's layer of the arrays it finds is `hidden` of the arguments. -/
theorem whole0_eq : Region0.whole (V1 m ρ) c
    = hidden (m ((c : Thread nD τ).loc main_arg0)) (m ((c : Thread nD τ).loc main_arg1)) (m ((c : Thread nD τ).loc main_arg2))
        (m ((c : Thread nD τ).loc main_arg5)) (m ((c : Thread nD τ).loc main_arg6)) := by
  unfold Region0.whole hidden
  rw [show V1 m ρ c main_v30 = _ from W1_v30 m ρ c, show V1 m ρ c main_v16 = _ from W1_v16 m ρ c,
    show V1 m ρ c main_arg1 = _ from W1_arg1 m ρ c, show V1 m ρ c main_v31 = _ from W1_v31 m ρ c,
    show V1 m ρ c main_v13 = _ from W1_v13 m ρ c]

/-! ## At the first region's exit -/

/-- The first region's output array. -/
theorem W2_v32 : W2 m ρ c (Proc.devRef .tc main_v32)
    = hidden (m ((c : Thread nD τ).loc main_arg0)) (m ((c : Thread nD τ).loc main_arg1)) (m ((c : Thread nD τ).loc main_arg2))
        (m ((c : Thread nD τ).loc main_arg5)) (m ((c : Thread nD τ).loc main_arg6)) :=
  ((W2_arr m ρ c 5).trans (Region0.final (V1 m ρ) c)).trans (whole0_eq m ρ c)

/-- The destination-side column is an input of the first region: it leaves it as it found it. -/
theorem W2_v16 : W2 m ρ c (Proc.devRef .tc main_v16) = normCol (m ((c : Thread nD τ).loc main_arg6)) :=
  ((W2_arr m ρ c 1).trans (((dat0 (V1 m ρ) c).arrAt_in 1 rfl _).trans (A_eq0 (V1 m ρ) c 1))).trans (W1_v16 m ρ c)

theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## At the second region's entry -/

/-- The second layer's weights with 64 zero columns appended. -/
def padW (a3 : (⟨S128x64, .f32⟩ : BufTy).Contents (Elt Ideal)) : (⟨S128x128, .f32⟩ : BufTy).Contents (Elt Ideal) :=
  pad S128x128 ![0, 0] ![0, 64] ![0, 0] a3 (sitofp (F := Ideal) .f32 (constantI S_ 32 0#32)) pads_S128x64_S128x128_000_0640 h_S_

/-- The second layer's bias with 64 zeros appended, as a row. -/
def padB (a4 : (⟨S64, .f32⟩ : BufTy).Contents (Elt Ideal)) : (⟨S1x128, .f32⟩ : BufTy).Contents (Elt Ideal) :=
  shapeCast S1x128 (pad S128 ![0] ![64] ![0] a4 (sitofp (F := Ideal) .f32 (constantI S_ 32 0#32)) pads_S64_S128_0640 h_S_) shapeCasts_S128_S1x128

theorem W7_v43 : W7 m ρ c (Proc.devRef .tc main_v43)
    = aggregate (W2 m ρ c (Proc.devRef .tc main_v32)) (W2 m ρ c (Proc.devRef .tc main_arg5)) (W2 m ρ c (Proc.devRef .tc main_arg6)) := by
  dsimp only [W7, W6, W5, W4, W3, hostOps1, hostOps1_1, hostOps1_2, hostOps1_3, hostOps1_4]
  after_results_simp
  rfl

theorem W7_v16 : W7 m ρ c (Proc.devRef .tc main_v16) = W2 m ρ c (Proc.devRef .tc main_v16) := by
  dsimp only [W7, W6, W5, W4, W3, hostOps1, hostOps1_1, hostOps1_2, hostOps1_3, hostOps1_4]
  after_results_simp

theorem W7_v44 : W7 m ρ c (Proc.devRef .tc main_v44) = padW (W2 m ρ c (Proc.devRef .tc main_arg3)) := by
  dsimp only [W7, W6, W5, W4, W3, hostOps1, hostOps1_1, hostOps1_2, hostOps1_3, hostOps1_4]
  after_results_simp
  rfl

theorem W7_v46 : W7 m ρ c (Proc.devRef .tc main_v46) = padB (W2 m ρ c (Proc.devRef .tc main_arg4)) := by
  dsimp only [W7, W6, W5, W4, W3, hostOps1, hostOps1_1, hostOps1_2, hostOps1_3, hostOps1_4]
  after_results_simp
  rfl

/-- The kernel's result before the closing cut: the second layer on the aggregated first layer, at width 128. -/
def wide (a0 : (⟨S50000x128, .f32⟩ : BufTy).Contents (Elt Ideal)) (a1 : (⟨S128x128, .f32⟩ : BufTy).Contents (Elt Ideal))
    (a2 : (⟨S128, .f32⟩ : BufTy).Contents (Elt Ideal)) (a3 : (⟨S128x64, .f32⟩ : BufTy).Contents (Elt Ideal))
    (a4 : (⟨S64, .f32⟩ : BufTy).Contents (Elt Ideal)) (a5 a6 : Edges) : Mat 50000 128 :=
  layer (aggregate (hidden a0 a1 a2 a5 a6) a5 a6 : Mat 50000 128) (normCol a6 : Mat 50000 1) (padW a3 : Mat 128 128) (padB a4 : Mat 1 128)

/-- The second region's layer of the arrays it finds is `wide` of the arguments. -/
theorem whole1_eq : Region1.whole (V7 m ρ) c
    = wide (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) := by
  unfold Region1.whole wide
  rw [show V7 m ρ c main_v43 = _ from W7_v43 m ρ c, show V7 m ρ c main_v16 = _ from W7_v16 m ρ c,
    show V7 m ρ c main_v44 = _ from W7_v44 m ρ c, show V7 m ρ c main_v46 = _ from W7_v46 m ρ c,
    W2_v32, W2_v16, W2_arg3, W2_arg4, W2_arg5, W2_arg6]

/-! ## At the second region's exit, and the result -/

theorem W8_v47 : W8 m ρ c (Proc.devRef .tc main_v47)
    = wide (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) :=
  ((W8_arr m ρ c 4).trans (Region1.final (V7 m ρ) c)).trans (whole1_eq m ρ c)

/-- The kernel's result: the first 64 columns of `wide`. -/
def result (a0 : (⟨S50000x128, .f32⟩ : BufTy).Contents (Elt Ideal)) (a1 : (⟨S128x128, .f32⟩ : BufTy).Contents (Elt Ideal))
    (a2 : (⟨S128, .f32⟩ : BufTy).Contents (Elt Ideal)) (a3 : (⟨S128x64, .f32⟩ : BufTy).Contents (Elt Ideal))
    (a4 : (⟨S64, .f32⟩ : BufTy).Contents (Elt Ideal)) (a5 a6 : Edges) : (⟨S50000x64, .f32⟩ : BufTy).Contents (Elt Ideal) :=
  extractStridedSlice S50000x64 ![0, 0] (wide a0 a1 a2 a3 a4 a5 a6) slices_S50000x128_S50000x64_0_0

theorem W9_v48 : W9 m ρ c (Proc.devRef .tc main_v48)
    = result (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) := by
  have e : W9 m ρ c (Proc.devRef .tc main_v48)
      = extractStridedSlice S50000x64 ![0, 0] (W8 m ρ c (Proc.devRef .tc main_v47)) slices_S50000x128_S50000x64_0_0 := by
    dsimp only [W9, hostOps2]
    after_results_simp
  rw [e, W8_v47]
  rfl

end Cert.KernelIdeal.Fold

end
-- ==== Proof.Reference.lean ====
/-
  The reference's two dense stages, as the layer of whole arrays.

  After each neighbour aggregation the reference scales the aggregated rows by the destination-side column,
  multiplies by the weights (one `dot_general` over the 128 features: on the extended reals the plain sum over
  the contracted axis), adds the bias broadcast down the rows and clamps below at zero; after the first layer
  it also scales by the source-side column, ready for the next aggregation.  Read at entry `(r, c)` these are
  `Cert.Spec.layerAt` of the whole arrays (times the source-side scale for the first layer).
-/
import proofs.«145772_j23914377904381_2_alg».proof.Proof.Gen.ReferenceIdeal.Read
import proofs.«145772_j23914377904381_2_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-! ## The composed index maps at explicit coordinates -/

theorem lidx31 (r : Fin 50000) (q k : Fin 128) : lidx_main_v31 (ix2 r q) k = ix2 r k :=
  funext fun a => by match a with | ⟨0, _⟩ => rfl | ⟨1, _⟩ => rfl
theorem ridx31 (r : Fin 50000) (q k : Fin 128) : ridx_main_v31 (ix2 r q) k = ix2 k q :=
  funext fun a => by match a with | ⟨0, _⟩ => rfl | ⟨1, _⟩ => rfl
theorem idx29 (r : Fin 50000) (k : Fin 128) : idx_main_v29 (ix2 r k) = ix2 r (0 : Fin 1) :=
  funext fun a => by match a with | ⟨0, _⟩ => rfl | ⟨1, _⟩ => rfl
theorem idx33 (r : Fin 50000) (q : Fin 128) : idx_main_v33 (ix2 r q) = ix2 (0 : Fin 1) q :=
  funext fun a => by match a with | ⟨0, _⟩ => rfl | ⟨1, _⟩ => rfl
theorem idx36 (r : Fin 50000) (q : Fin 128) : idx_main_v36 (ix2 r q) = ix2 r (0 : Fin 1) :=
  funext fun a => by match a with | ⟨0, _⟩ => rfl | ⟨1, _⟩ => rfl
theorem lidx50 (r : Fin 50000) (q : Fin 64) (k : Fin 128) : lidx_main_v50 (ix2 r q) k = ix2 r k :=
  funext fun a => by match a with | ⟨0, _⟩ => rfl | ⟨1, _⟩ => rfl
theorem ridx50 (r : Fin 50000) (q : Fin 64) (k : Fin 128) : ridx_main_v50 (ix2 r q) k = ix2 k q :=
  funext fun a => by match a with | ⟨0, _⟩ => rfl | ⟨1, _⟩ => rfl
theorem idx48 (r : Fin 50000) (k : Fin 128) : idx_main_v48 (ix2 r k) = ix2 r (0 : Fin 1) :=
  funext fun a => by match a with | ⟨0, _⟩ => rfl | ⟨1, _⟩ => rfl
theorem idx52 (r : Fin 50000) (q : Fin 64) : idx_main_v52 (ix2 r q) = ix2 (0 : Fin 1) q :=
  funext fun a => by match a with | ⟨0, _⟩ => rfl | ⟨1, _⟩ => rfl

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S128x64, .f32⟩ : BufTy).Contents (Elt Ideal))
  (x4 : (⟨S64, .f32⟩ : BufTy).Contents (Elt Ideal)) (x5 x6 : (⟨S800000, .i32⟩ : BufTy).Contents (Elt Ideal))

/-- One term of the first contraction, at explicit coordinates. -/
theorem term1 (r : Fin 50000) (q k : Fin 128) :
    val_main_v30 (F := Ideal) x0 x5 x6 (lidx_main_v31 (ix2 r q) k) * x1 (ridx_main_v31 (ix2 r q) k)
      = (val_main_v28 (F := Ideal) x0 x5 x6 (ix2 r k) * val_main_v16 (F := Ideal) x6 (ix2 r (0 : Fin 1))) * x1 (ix2 k q) := by
  rw [lidx31, ridx31, val_main_v30_apply, val_main_v29_apply, idx29, Ideal.mulf_def]

/-- One term of the second contraction, at explicit coordinates. -/
theorem term2 (r : Fin 50000) (q : Fin 64) (k : Fin 128) :
    val_main_v49 (F := Ideal) x0 x1 x2 x5 x6 (lidx_main_v50 (ix2 r q) k) * x3 (ridx_main_v50 (ix2 r q) k)
      = (val_main_v47 (F := Ideal) x0 x1 x2 x5 x6 (ix2 r k) * val_main_v16 (F := Ideal) x6 (ix2 r (0 : Fin 1))) * x3 (ix2 k q) := by
  rw [lidx50, ridx50, val_main_v49_apply, val_main_v48_apply, idx48, Ideal.mulf_def]

/-- The first layer's output, already scaled for the next aggregation: the layer of the first aggregation, the
    destination-side scale, the first weights and bias, times the source-side scale. -/
theorem layer1_eq :
    val_main_v37 (F := Ideal) x0 x1 x2 x5 x6
      = layerScaled (val_main_v28 (F := Ideal) x0 x5 x6 : Mat 50000 128) (val_main_v16 (F := Ideal) x6 : Mat 50000 1)
          (x1 : Mat 128 128) (val_main_v32 (F := Ideal) x2 : Mat 1 128) (val_main_v13 (F := Ideal) x5 : Mat 50000 1) := by
  funext i
  obtain ⟨r, q, rfl⟩ : ∃ (r : Fin 50000) (q : Fin 128), i = ix2 r q := ⟨i 0, i 1, eq_ix2 i⟩
  rw [layerScaled_ix2, val_main_v37_apply, val_main_v35_apply, val_main_v34_apply, val_main_v31_apply, val_main_v33_apply,
    val_main_v36_apply, val_main_call0_v0_apply, val_main_call0_cst_apply, idx33, idx36,
    Finset.sum_congr rfl fun k _ => term1 x0 x1 x5 x6 r q k]
  generalize val_main_v28 (F := Ideal) x0 x5 x6 = A
  generalize val_main_v16 (F := Ideal) x6 = s
  generalize val_main_v13 (F := Ideal) x5 = u
  generalize val_main_v32 (F := Ideal) x2 = b
  unfold layerAt
  rw [Ideal.mulf_def, Ideal.maximumf_def, Ideal.addf_def, Ideal.ofBits_def, Ideal.ofBits_zero_f32]

/-- The second layer's output: the layer of the second aggregation, the destination-side scale, the second
    weights and bias. -/
theorem layer2_eq :
    val_main_v54 (F := Ideal) x0 x1 x2 x3 x4 x5 x6
      = layer (val_main_v47 (F := Ideal) x0 x1 x2 x5 x6 : Mat 50000 128) (val_main_v16 (F := Ideal) x6 : Mat 50000 1)
          (x3 : Mat 128 64) (val_main_v51 (F := Ideal) x4 : Mat 1 64) := by
  funext i
  obtain ⟨r, q, rfl⟩ : ∃ (r : Fin 50000) (q : Fin 64), i = ix2 r q := ⟨i 0, i 1, eq_ix2 i⟩
  rw [layer_ix2, val_main_v54_apply, val_main_v53_apply, val_main_v50_apply, val_main_v52_apply,
    val_main_call1_v0_apply, val_main_call1_cst_apply, idx52,
    Finset.sum_congr rfl fun k _ => term2 x0 x1 x2 x3 x5 x6 r q k]
  generalize val_main_v47 (F := Ideal) x0 x1 x2 x5 x6 = A
  generalize val_main_v16 (F := Ideal) x6 = s
  generalize val_main_v51 (F := Ideal) x4 = b
  unfold layerAt
  rw [Ideal.maximumf_def, Ideal.addf_def, Ideal.ofBits_def, Ideal.ofBits_zero_f32]

end Cert.ReferenceIdeal.RefValue

end
-- ==== Proof.Bridge.lean ====
/-
  The kernel's result and the reference's result are one function of the arguments.

  Stage by stage the two programs apply the same operations: the same degree columns, the same neighbour
  aggregation (the kernel's passes through a narrower float format, which on the extended reals is the
  identity), the same dense layer.  Two arrangements differ.  The kernel lays the bias out as a row by a
  reshape where the reference broadcasts it: the same row.  And the kernel runs the second layer at width 128 on
  weights and bias padded with 64 zero columns, then keeps the first 64 columns: column `c < 64` of the padded
  product reads only column `c` of the unpadded weights and entry `c` of the unpadded bias, so the kept columns
  are the unpadded layer.
-/
import proofs.«145772_j23914377904381_2_alg».proof.Proof.KernelFold
import proofs.«145772_j23914377904381_2_alg».proof.Proof.Reference
import Idealize.ShloMosaic.Lib.KernelVsHost
import Idealize.ShloMosaic.Lib.ValueLayout

noncomputable section

namespace Cert.Bridge

open Idealize.ShloMosaic Idealize.ShloMosaic.ValueIdx Cert.Spec
open Cert.KernelIdeal.Fold (normCol aggregate scaledIn padW padB wide result)

/-! ## The dense layer reads only row 0 of its bias -/

theorem layerScaled_congr_bias {n K d : Nat} (A : Mat n K) (s : Mat n 1) (W : Mat K d) (b b' : Mat 1 d) (u : Mat n 1)
    (hb : ∀ c : Fin d, b (ix2 (0 : Fin 1) c) = b' (ix2 (0 : Fin 1) c)) : layerScaled A s W b u = layerScaled A s W b' u := by
  funext i
  obtain ⟨r, c, rfl⟩ : ∃ (r : Fin n) (c : Fin d), i = ix2 r c := ⟨i 0, i 1, eq_ix2 i⟩
  rw [layerScaled_ix2, layerScaled_ix2]
  unfold layerAt
  rw [hb c]

variable (x0 : (⟨Cert.ReferenceIdeal.S50000x128, .f32⟩ : BufTy).Contents (Elt Ideal))
  (x1 : (⟨Cert.ReferenceIdeal.S128x128, .f32⟩ : BufTy).Contents (Elt Ideal))
  (x2 : (⟨Cert.ReferenceIdeal.S128, .f32⟩ : BufTy).Contents (Elt Ideal))
  (x3 : (⟨Cert.ReferenceIdeal.S128x64, .f32⟩ : BufTy).Contents (Elt Ideal))
  (x4 : (⟨Cert.ReferenceIdeal.S64, .f32⟩ : BufTy).Contents (Elt Ideal))
  (x5 x6 : (⟨Cert.ReferenceIdeal.S800000, .i32⟩ : BufTy).Contents (Elt Ideal))

/-! ## The shared host stages -/

/-- The source-side column of scales is the reference's. -/
theorem normCol_src : normCol x5 = Cert.ReferenceIdeal.Read.val_main_v13 (F := Ideal) x5 := rfl
/-- The destination-side column of scales is the reference's. -/
theorem normCol_dst : normCol x6 = Cert.ReferenceIdeal.Read.val_main_v16 (F := Ideal) x6 := rfl

/-- The first aggregation: the kernel narrows the scaled features and widens the gathered rows again, both the
    identity here. -/
theorem agg_first : aggregate (scaledIn x0 x5) x5 x6 = Cert.ReferenceIdeal.Read.val_main_v28 (F := Ideal) x0 x5 x6 := rfl

/-- The second aggregation, of the reference's own first-layer output. -/
theorem agg_second : aggregate (Cert.ReferenceIdeal.Read.val_main_v37 (F := Ideal) x0 x1 x2 x5 x6) x5 x6
    = Cert.ReferenceIdeal.Read.val_main_v47 (F := Ideal) x0 x1 x2 x5 x6 := rfl

/-! ## The first layer -/

/-- The first bias as a row: reshaped by the kernel, broadcast by the reference. -/
theorem bias1_row (h : Cert.KernelIdeal.S128.ShapeCasts Cert.KernelIdeal.S1x128) (q : Fin 128) :
    shapeCast Cert.KernelIdeal.S1x128 x2 h (ix2 (0 : Fin 1) q)
      = Cert.ReferenceIdeal.Read.val_main_v32 (F := Ideal) x2 (ix2 (0 : Fin 1) q) := by
  rw [shapeCast_a_1a_apply, Cert.ReferenceIdeal.Read.val_main_v32_apply]
  exact congrArg x2 (funext fun a => by match a with | ⟨0, _⟩ => rfl)

/-- The kernel's first-layer output is the reference's. -/
theorem hidden_eq : Cert.KernelIdeal.Fold.hidden x0 x1 x2 x5 x6 = Cert.ReferenceIdeal.Read.val_main_v37 (F := Ideal) x0 x1 x2 x5 x6 := by
  rw [Cert.ReferenceIdeal.RefValue.layer1_eq]
  unfold Cert.KernelIdeal.Fold.hidden
  rw [agg_first, normCol_dst, normCol_src]
  generalize Cert.ReferenceIdeal.Read.val_main_v28 (F := Ideal) x0 x5 x6 = A
  generalize Cert.ReferenceIdeal.Read.val_main_v16 (F := Ideal) x6 = s
  generalize Cert.ReferenceIdeal.Read.val_main_v13 (F := Ideal) x5 = u
  exact layerScaled_congr_bias _ _ _ _ _ _ (bias1_row x2 _)

/-! ## The second layer: padded to width 128, the first 64 columns kept -/

/-- A column `q < 64` of the padded weights is that column of the weights. -/
theorem padW_apply (k : Fin 128) (q : Fin 64) (hq : q.val < 128) :
    padW x3 (ix2 k (⟨q.val, hq⟩ : Fin 128)) = x3 (ix2 k q) := by
  unfold padW
  refine pad_apply_of_inside _ _ _ _ _ _ _ (ix2 k (⟨q.val, hq⟩ : Fin 128)) (ix2 k q) fun a => ?_
  match a with
  | ⟨0, _⟩ => show k.val = 0 + k.val * (0 + 1); omega
  | ⟨1, _⟩ => show q.val = 0 + q.val * (0 + 1); omega

/-- An entry `q < 64` of the padded bias row is that entry of the bias, which is the reference's bias row there. -/
theorem padB_apply (q : Fin 64) (hq : q.val < 128) :
    padB x4 (ix2 (0 : Fin 1) (⟨q.val, hq⟩ : Fin 128)) = Cert.ReferenceIdeal.Read.val_main_v51 (F := Ideal) x4 (ix2 (0 : Fin 1) q) := by
  unfold padB
  rw [shapeCast_a_1a_apply, Cert.ReferenceIdeal.Read.val_main_v51_apply]
  refine (pad_apply_of_inside _ _ _ _ _ _ _ (ix1 (⟨q.val, hq⟩ : Fin 128)) (ix1 q) fun a => ?_).trans
    (congrArg x4 (funext fun a => by match a with | ⟨0, _⟩ => rfl))
  match a with
  | ⟨0, _⟩ => show q.val = 0 + q.val * (0 + 1); omega

/-- The first 64 columns of the width-128 layer on padded weights and bias are the width-64 layer. -/
theorem slice_wide (A : Mat 50000 128) (s : Mat 50000 1)
    (h : Cert.KernelIdeal.S50000x128.Slices ![0, 0] Cert.KernelIdeal.S50000x64) :
    extractStridedSlice Cert.KernelIdeal.S50000x64 ![0, 0] (layer A s (padW x3 : Mat 128 128) (padB x4 : Mat 1 128)) h
      = layer A s (x3 : Mat 128 64) (Cert.ReferenceIdeal.Read.val_main_v51 (F := Ideal) x4 : Mat 1 64) := by
  funext i
  obtain ⟨r, q, rfl⟩ : ∃ (r : Fin 50000) (q : Fin 64), i = ix2 r q := ⟨i 0, i 1, eq_ix2 i⟩
  have hq : q.val < 128 := by omega
  rw [extractStridedSlice_apply _ _ _ (ix2 r q) (ix2 r (⟨q.val, hq⟩ : Fin 128)) (fun a => by
    match a with
    | ⟨0, _⟩ => exact (Nat.zero_add _).symm
    | ⟨1, _⟩ => exact (Nat.zero_add _).symm)]
  rw [layer_ix2, layer_ix2]
  unfold layerAt
  rw [padB_apply x4 q hq]
  exact congrArg (fun x => max (x + Cert.ReferenceIdeal.Read.val_main_v51 (F := Ideal) x4 (ix2 (0 : Fin 1) q)) 0)
    (Finset.sum_congr rfl fun k _ => by rw [padW_apply x3 k q hq])

/-- The kernel's result is the reference's result. -/
theorem result_eq : result x0 x1 x2 x3 x4 x5 x6 = Cert.ReferenceIdeal.Read.val_main_v54 (F := Ideal) x0 x1 x2 x3 x4 x5 x6 := by
  rw [Cert.ReferenceIdeal.RefValue.layer2_eq]
  unfold result wide
  rw [hidden_eq, normCol_dst, agg_second]
  exact slice_wide x3 x4 _ _ _

end Cert.Bridge

end
-- ==== Proof.lean ====
/-
  A two-layer graph convolution: the kernel against its jnp reference, on the extended reals.

  Both programs compute, from node features `h`, edge lists `src` and `dst`, and two layers of weights and biases,

      out = relu (D_in^(-1/2) · Agg (relu (D_in^(-1/2) · Agg (h · D_out^(-1/2)) · W1 + b1) · D_out^(-1/2)) · W2 + b2)

  where `Agg` gathers rows along `src` and adds them up along `dst`, and the degree scales are `deg^(-1/2)` with
  degrees clamped below at 1.  The reference does this with whole-array host operations.  The kernel does the
  aggregations and the degree scales with the same host operations, and each dense step (scale by `D_in^(-1/2)`,
  multiply by the weights, add the bias, clamp at zero — and for the first layer the next `D_out^(-1/2)` scale) in a
  tiled region that handles 2000 rows per grid point; the second layer is run at width 128 on zero-padded weights
  and bias and the first 64 columns are kept.

  The proof reads the kernel's result off its run: the buffer contents at the nine segment boundaries form a fold
  from the launch memory; each region's output array is the dense layer of the whole arrays it finds (a row of the
  layer depends only on that row of its inputs, and the 25 row blocks tile the array); so the result is one term
  of the arguments (`Cert.KernelIdeal.Fold.result`).  The reference's result is its operations' composed term.  The
  two terms are equal (`Cert.Bridge.result_eq`): the shared stages are the same operations (a change of float format
  is the identity on the extended reals), the dense layers agree index by index, and the kept columns of the padded
  layer never read the padding.  No finiteness of the inputs is used.
-/
import proofs.«145772_j23914377904381_2_alg».proof.Defs
import proofs.«145772_j23914377904381_2_alg».proof.Proof.Gen.Kernel
import proofs.«145772_j23914377904381_2_alg».proof.Proof.Gen.Kernel.Skeleton
import proofs.«145772_j23914377904381_2_alg».proof.Proof.Gen.Kernel.Launch
import proofs.«145772_j23914377904381_2_alg».proof.Proof.Gen.Kernel.Points
import proofs.«145772_j23914377904381_2_alg».proof.Proof.Gen.Kernel.Frame
import proofs.«145772_j23914377904381_2_alg».proof.Proof.Gen.KernelIdeal
import proofs.«145772_j23914377904381_2_alg».proof.Proof.Gen.KernelIdeal.Skeleton
import proofs.«145772_j23914377904381_2_alg».proof.Proof.Gen.KernelIdeal.Launch
import proofs.«145772_j23914377904381_2_alg».proof.Proof.Gen.KernelIdeal.Points
import proofs.«145772_j23914377904381_2_alg».proof.Proof.Gen.KernelIdeal.Frame
import proofs.«145772_j23914377904381_2_alg».proof.Proof.Gen.ReferenceIdeal
import proofs.«145772_j23914377904381_2_alg».proof.Proof.Gen.Pre_finite_inputs
import proofs.«145772_j23914377904381_2_alg».proof.Proof.Gen.ReferenceIdeal.Run
import proofs.«145772_j23914377904381_2_alg».proof.Proof.Gen.ReferenceIdeal.Read
import proofs.«145772_j23914377904381_2_alg».proof.Proof.KernelRun
import proofs.«145772_j23914377904381_2_alg».proof.Proof.KernelFold
import proofs.«145772_j23914377904381_2_alg».proof.Proof.Reference
import proofs.«145772_j23914377904381_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories agreeing on the arguments both idealized programs run and end with the same result: the kernel's
    at `Fold.result` of its arguments, the reference's at its composed term, and the two are one function. -/
theorem algebraic : Cert.algebraic_KernelIdeal_ReferenceIdeal := by
  intro m ρ m' ρ' _ hagree
  refine ⟨fun c => Cert.KernelIdeal.Fold.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.W9_v48 m ρ c), (h c).2⟩)
      (Cert.KernelIdeal.Hand.run_W9 (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2]
    exact (Cert.Bridge.result_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
